-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x32, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x32, .f32⟩
  | .hbm, ⟨78, _⟩ => ⟨S850000x1, .f32⟩
  | .hbm, ⟨79, _⟩ => ⟨S850000x32, .f32⟩
  | .hbm, ⟨80, _⟩ => ⟨S850000x32, .f32⟩
  | .hbm, ⟨81, _⟩ => ⟨S_, .f32⟩
  | .hbm, ⟨82, _⟩ => ⟨S50000x32, .f32⟩
  | .hbm, ⟨83, _⟩ => ⟨S850000x1, .i32⟩
  | .hbm, ⟨84, _⟩ => ⟨S50000x32, .f32⟩
  | .hbm, ⟨85, _⟩ => ⟨S1x32, .f32⟩
  | .hbm, ⟨86, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x32, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x32, .f32⟩
  | .hbm, ⟨82, _⟩ => ⟨S850000x1, .f32⟩
  | .hbm, ⟨83, _⟩ => ⟨S850000x32, .f32⟩
  | .hbm, ⟨84, _⟩ => ⟨S850000x32, .f32⟩
  | .hbm, ⟨85, _⟩ => ⟨S_, .f32⟩
  | .hbm, ⟨86, _⟩ => ⟨S50000x32, .f32⟩
  | .hbm, ⟨87, _⟩ => ⟨S850000x1, .i32⟩
  | .hbm, ⟨88, _⟩ => ⟨S50000x32, .f32⟩
  | .hbm, ⟨89, _⟩ => ⟨S1x32, .f32⟩
  | .hbm, ⟨90, _⟩ => ⟨S50000x32, .f32⟩
  | .hbm, ⟨91, _⟩ => ⟨S50000x32, .f32⟩
  | .hbm, ⟨92, _⟩ => ⟨S_, .f32⟩
  | .hbm, ⟨93, _⟩ => ⟨S50000x32, .f32⟩
  | .hbm, ⟨94, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelRun.lean ====
/-
  The idealized kernel's run with its result named.

  The program is four kernel regions among stretches of host operations.  Its run is a chain of segments, each
  entered from the buffer contents the one before left; after the last region every buffer that outlives a region
  holds the last boundary's contents `Gen.W9`.  The frame keeps of that only the six argument arrays; here the
  same chain is read at the result array as well, so that a value proof can open `Gen.W9` at it.
-/
import proofs.«104333_j20538533609986_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array ends at the last
    boundary's contents and the six argument arrays end as launched. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Layers.lean ====
/-
  The two dense stages of one graph-convolution layer, as functions of whole arrays read at an index.

  A layer takes node features `x` (one row per node), multiplies them by a weight matrix, passes the
  product through the graph's message passing (gather the rows at the edges' sources, scale each by the
  edge's normalisation, add the rows up at the edges' targets), adds a bias to every row and clips at
  zero.  The message passing is the same host operations in both programs and is never opened here;
  what the two programs do differently is the matrix product (in row blocks on the matrix unit against
  one whole contraction on the host) and the bias-and-clip epilogue (in row blocks against whole-array
  host operations).  Both stages are stated here once, over extended reals:

  * `dense x w` at `(r, c)` is the sum over `k` of `x (r, k) * w (k, c)`;
  * `biasRelu a b` at `(r, c)` is the larger of `a (r, c) + b c` and zero (`biasReluRow`: the bias as a one-row array).
-/
import Idealize.ShloMosaic.Lib.ValueIdx
import Idealize.ShloMosaic.PureOps.Ideal

noncomputable section

open scoped BigOperators

namespace Cert.Gcn

open Idealize.ShloMosaic Idealize.ShloMosaic.ValueIdx

/-- The product of an `M × K` array of node features with a `K × N` weight matrix: entry `(r, c)` is
    the sum over `k` of `x (r, k) * w (k, c)`. -/
def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- A bias added to every row, then clipped at zero from below: entry `(r, c)` is the larger of
    `a (r, c) + b c` and the value of the all-zero word (which is zero; nothing here needs to know). -/
def biasRelu {M N : Nat} (a : (⟨2, ![M, N]⟩ : Shape).Idx → EReal) (b : (⟨1, ![N]⟩ : Shape).Idx → EReal) :
    (⟨2, ![M, N]⟩ : Shape).Idx → EReal :=
  fun j => FloatOps.maximumf (F := Ideal) (φ := .f32) (FloatOps.addf (F := Ideal) (φ := .f32) (a j) (b (ix1 (j 1))))
    (FloatOps.ofBits (F := Ideal) .f32 0x00000000#32)

/-- The same epilogue with the bias given as a one-row array (the form a kernel stages it in): entry `(r, c)` is the
    larger of `a (r, c) + b (0, c)` and the value of the all-zero word. -/
def biasReluRow {M N : Nat} (a : (⟨2, ![M, N]⟩ : Shape).Idx → EReal) (b : (⟨2, ![1, N]⟩ : Shape).Idx → EReal) :
    (⟨2, ![M, N]⟩ : Shape).Idx → EReal :=
  fun j => FloatOps.maximumf (F := Ideal) (φ := .f32) (FloatOps.addf (F := Ideal) (φ := .f32) (a j) (b (ix2 (0 : Fin 1) (j 1))))
    (FloatOps.ofBits (F := Ideal) .f32 0x00000000#32)

end Cert.Gcn

end
-- ==== Proof.Payloads.lean ====
/-
  What each kernel body computes, read at an index of its output block, over the extended reals.

  The matrix-unit bodies cut both operands to a narrower float format (the identity on extended reals) and
  multiply them into a zero accumulator: the block of products is `dense` of the two loaded blocks.  The
  epilogue bodies add a one-row bias block, repeated down the rows, to the loaded block and clip the sum at
  zero: `biasReluRow` of the loaded block and of the bias row.
-/
import proofs.«104333_j20538533609986_1_alg».proof.Proof.Gen.KernelIdeal.Skeleton
import proofs.«104333_j20538533609986_1_alg».proof.Proof.LibPlainDot
import proofs.«104333_j20538533609986_1_alg».proof.Proof.Layers
import Idealize.ShloMosaic.Lib.Pipeline.Value
import Idealize.ShloMosaic.Lib.ValueLayout

noncomputable section

open scoped BigOperators

namespace Cert.KernelIdeal.Payloads

open Cert.KernelIdeal Cert.KernelIdeal.Gen Idealize.ShloMosaic Idealize.ShloMosaic.ValueIdx Cert.Gcn

/-! ## The two contractions are plain: the left operand's second axis against the right operand's first -/

abbrev dims1 : DotDims S5000x128 S128x64 S5000x64 := dot_S5000x128_S128x64_S5000x64_1_0_0_1_n_n

theorem dims1_l0 (i : S5000x64.Idx) (q : dims1.contr.Idx) : (dims1.lhsIdx i q 0).val = (i 0).val := by
  unfold DotDims.lhsIdx
  rw [dif_neg (show ¬(0 : Fin S5000x128.rank) ∈ dims1.lhsBatch by decide),
    dif_pos (show (0 : Fin S5000x128.rank) ∈ dims1.lhsNonContracting by decide)]
  rfl
theorem dims1_l1 (i : S5000x64.Idx) (q : dims1.contr.Idx) : (dims1.lhsIdx i q 1).val = (q ⟨0, by decide⟩).val :=
  dims1.lhsIdx_val_of_single rfl i q
theorem dims1_r0 (i : S5000x64.Idx) (q : dims1.contr.Idx) : (dims1.rhsIdx i q 0).val = (q ⟨0, by decide⟩).val :=
  dims1.rhsIdx_val_of_single rfl i q
theorem dims1_r1 (i : S5000x64.Idx) (q : dims1.contr.Idx) : (dims1.rhsIdx i q 1).val = (i 1).val := by
  unfold DotDims.rhsIdx
  rw [dif_neg (show ¬(1 : Fin S128x64.rank) ∈ dims1.rhsBatch by decide),
    dif_pos (show (1 : Fin S128x64.rank) ∈ dims1.rhsNonContracting by decide)]
  rfl

/-- The first layer's matrix-unit body: a block of 5000 feature rows times the whole first weight matrix. -/
theorem product1_apply (x : Vec Ideal S5000x128 .f32) (w : Vec Ideal S128x64 .f32) (j : S5000x64.Idx) :
    k0_pay1 (F := Ideal) x w j = dense (M := 5000) (K := 128) (N := 64) x w j := by
  unfold k0_pay1
  exact Cert.Lib.PlainDot.matmul_zero_apply (M := 5000) (K := 128) (N := 64) dims1 rfl rfl
    dims1_l0 dims1_l1 dims1_r0 dims1_r1 none x w j

abbrev dims2 : DotDims S5000x64 S64x32 S5000x32 := dot_S5000x64_S64x32_S5000x32_1_0_0_1_n_n

theorem dims2_l0 (i : S5000x32.Idx) (q : dims2.contr.Idx) : (dims2.lhsIdx i q 0).val = (i 0).val := by
  unfold DotDims.lhsIdx
  rw [dif_neg (show ¬(0 : Fin S5000x64.rank) ∈ dims2.lhsBatch by decide),
    dif_pos (show (0 : Fin S5000x64.rank) ∈ dims2.lhsNonContracting by decide)]
  rfl
theorem dims2_l1 (i : S5000x32.Idx) (q : dims2.contr.Idx) : (dims2.lhsIdx i q 1).val = (q ⟨0, by decide⟩).val :=
  dims2.lhsIdx_val_of_single rfl i q
theorem dims2_r0 (i : S5000x32.Idx) (q : dims2.contr.Idx) : (dims2.rhsIdx i q 0).val = (q ⟨0, by decide⟩).val :=
  dims2.rhsIdx_val_of_single rfl i q
theorem dims2_r1 (i : S5000x32.Idx) (q : dims2.contr.Idx) : (dims2.rhsIdx i q 1).val = (i 1).val := by
  unfold DotDims.rhsIdx
  rw [dif_neg (show ¬(1 : Fin S64x32.rank) ∈ dims2.rhsBatch by decide),
    dif_pos (show (1 : Fin S64x32.rank) ∈ dims2.rhsNonContracting by decide)]
  rfl

/-- The second layer's matrix-unit body: a block of 5000 hidden rows (a cast of the block to its own shape is the
    identity) times the whole second weight matrix. -/
theorem product2_apply (x : Vec Ideal S5000x64 .f32) (w : Vec Ideal S64x32 .f32) (j : S5000x32.Idx) :
    k2_pay1 (F := Ideal) x w j = dense (M := 5000) (K := 64) (N := 32) x w j := by
  unfold k2_pay1
  rw [shapeCast_self]
  exact Cert.Lib.PlainDot.matmul_zero_apply (M := 5000) (K := 64) (N := 32) dims2 rfl rfl
    dims2_l0 dims2_l1 dims2_r0 dims2_r1 none x w j

/-! ## The two epilogues -/

/-- The first layer's epilogue body: the one-row bias block added to every row of the loaded block, clipped at zero. -/
theorem epilogue1_apply (a : Vec Ideal S5000x64 .f32) (b : Vec Ideal S1x64 .f32) (j : S5000x64.Idx) :
    k1_pay1 (F := Ideal) a b j = biasReluRow (M := 5000) (N := 64) a b j := by
  have hb : broadcastTo S5000x64 b broadcasts_S1x64_S5000x64 j = b (ix2 (0 : Fin 1) (j 1)) :=
    broadcastTo_apply b broadcasts_S1x64_S5000x64 j (ix2 (0 : Fin 1) (j 1)) (fun a => match a with
      | ⟨0, _⟩ => by show 0 = if (1 : Nat) = 1 then 0 else _; rw [if_pos rfl]
      | ⟨1, _⟩ => by show (j 1).val = if (64 : Nat) = 1 then 0 else _; rw [if_neg (by decide)]; rfl)
  unfold k1_pay1 biasReluRow
  dsimp only [maximumf, addf, broadcast]
  rw [shapeCast_self, shapeCast_self, hb]

/-- The second layer's epilogue body: the one-row bias block added to every row of the loaded block, clipped at zero. -/
theorem epilogue2_apply (a : Vec Ideal S5000x32 .f32) (b : Vec Ideal S1x32 .f32) (j : S5000x32.Idx) :
    k3_pay1 (F := Ideal) a b j = biasReluRow (M := 5000) (N := 32) a b j := by
  have hb : broadcastTo S5000x32 b broadcasts_S1x32_S5000x32 j = b (ix2 (0 : Fin 1) (j 1)) :=
    broadcastTo_apply b broadcasts_S1x32_S5000x32 j (ix2 (0 : Fin 1) (j 1)) (fun a => match a with
      | ⟨0, _⟩ => by show 0 = if (1 : Nat) = 1 then 0 else _; rw [if_pos rfl]
      | ⟨1, _⟩ => by show (j 1).val = if (32 : Nat) = 1 then 0 else _; rw [if_neg (by decide)]; rfl)
  unfold k3_pay1 biasReluRow
  dsimp only [maximumf, addf, broadcast]
  rw [shapeCast_self, shapeCast_self, hb]

end Cert.KernelIdeal.Payloads

end
-- ==== Proof.Product1.lean ====
/-
  The first product region's output array, whole.

  The region runs the matrix-unit body at ten grid points; point `t` stages rows `5000 t … 5000 t + 4999` of
  the feature array and the whole weight matrix, and writes back the same rows of the product.  The blocks
  tile the output, so after the region the output array is `dense` of the two arrays as the region found
  them, whatever those are: the statement is at a parameter `V`, the buffer contents at the region's entry.
-/
import proofs.«104333_j20538533609986_1_alg».proof.Proof.Gen.KernelIdeal.Frame
import proofs.«104333_j20538533609986_1_alg».proof.Proof.Payloads
import Idealize.ShloMosaic.Lib.Pipeline.Value

set_option maxRecDepth 16384

noncomputable section

open scoped BigOperators

namespace Cert.KernelIdeal.Product1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block and output windows move down the rows with the point,
    the weight window stays. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point `t` is rows `5000 t …` of the array of rows. -/
theorem rows_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → EReal) i := by
  obtain ⟨e0, e1, -⟩ := grid_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight block at every point is the whole weight matrix. -/
theorem weights_apply (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg2 : S128x64.Idx → EReal) i := by
  obtain ⟨-, -, e2, e3, -⟩ := grid_facts t
  unfold iblk0
  rw [View.read_apply]
  show V c main_arg2 _ = V c main_arg2 _
  congr 1
  funext a
  apply Fin.ext
  match a with
  | ⟨0, _⟩ => show win0_1.index t 0 * 128 + 1 * (y 0).val = (i 0).val; rw [e2, h0]; omega
  | ⟨1, _⟩ => show win0_1.index t 1 * 64 + 1 * (y 1).val = (i 1).val; rw [e3, h1]; omega

/-- What the body leaves at point `t`, read at `j`, is the product of the two arrays at row `5000 t + j 0`. -/
theorem block_apply (c : Dev nD) (t : Fin cfg0.N) (j : S5000x64.Idx) (i : S50000x64.Idx)
    (h0 : (i 0).val = 5000 * t.val + (j 0).val) (h1 : (i 1).val = (j 1).val) :
    k0_pay1 (F := Ideal) (iblk0 V c 0 t) (iblk0 V c 1 t) j
      = dense (M := 50000) (K := 128) (N := 64) (V c main_arg0) (V c main_arg2) i := by
  refine (Payloads.product1_apply (iblk0 V c 0 t) (iblk0 V c 1 t) j).trans ?_
  unfold dense
  refine Finset.sum_congr rfl fun k _ => ?_
  exact congrArg₂ (fun a b : EReal => a * b)
    (rows_apply V c t (ix2 (j 0) k) (ix2 (i 0) k) h0 rfl)
    (weights_apply V c t (ix2 k (j 1)) (ix2 k (i 1)) rfl h1)

/-- What point `t` writes back is its block of the whole product. -/
theorem flushed_eq (c : Dev nD) (t : Fin cfg0.N) :
    (dat0 V c).flushed 2 t = ((cfg0.win 2).blk t).view.read (Elt Ideal)
      (dense (M := 50000) (K := 128) (N := 64) (V c main_arg0) (V c main_arg2)) := by
  obtain ⟨-, -, -, -, e4, e5⟩ := grid_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  refine block_apply V c t j _ ?_ ?_
  · show win0_2.index t (0 : Fin 2) * 5000 + 1 * (j 0).val = 5000 * t.val + (j 0).val; rw [e4]; omega
  · show win0_2.index t (1 : Fin 2) * 64 + 1 * (j 1).val = (j 1).val; rw [e5]; omega

/-- An index of the output array is in point `t`'s block iff each coordinate is in the block's range. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- Row `r` of the output is in the block of point `r / 5000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  let t : Fin cfg0.N := ⟨(i 0).val / 5000, by show _ < grid0.N; rw [hN]; omega⟩
  obtain ⟨-, -, -, -, e4, e5⟩ := grid_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4]; show (i 0).val / 5000 * 5000 ≤ (i 0).val ∧ (i 0).val < (i 0).val / 5000 * 5000 + 5000; omega
  | ⟨1, _⟩ =>
    show win0_2.index t (1 : Fin 2) * 64 ≤ (i 1).val ∧ (i 1).val < win0_2.index t (1 : Fin 2) * 64 + 64
    rw [e5]; omega

/-- After the region the output array is the product of the array of rows and the weight matrix as found. -/
theorem array_eq (c : Dev nD) :
    (dat0 V c).arrAt 2 cfg0.N = dense (M := 50000) (K := 128) (N := 64) (V c main_arg0) (V c main_arg2) :=
  (dat0 V c).arrAt_eq_of_cover 2 _ (fun t _ => flushed_eq V c t) cover

end Cert.KernelIdeal.Product1

end
-- ==== Proof.Epilogue1.lean ====
/-
  The first epilogue region's output array, whole.

  Ten grid points; point `t` stages rows `5000 t … 5000 t + 4999` of the aggregated features and the whole
  one-row bias array, and writes back the same rows of the sum clipped at zero.  After the region the output
  array is `biasReluRow` of the two arrays as the region found them (`V`: the contents at the region's entry).
-/
import proofs.«104333_j20538533609986_1_alg».proof.Proof.Gen.KernelIdeal.Frame
import proofs.«104333_j20538533609986_1_alg».proof.Proof.Payloads
import Idealize.ShloMosaic.Lib.Pipeline.Value

set_option maxRecDepth 16384

noncomputable section

open scoped BigOperators

namespace Cert.KernelIdeal.Epilogue1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block and output windows move down the rows with the point,
    the bias window stays. -/
theorem grid_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block at point `t` is rows `5000 t …` of the aggregated array. -/
theorem rows_apply (c : Dev nD) (t : Fin cfg1.N) (y : S5000x64.Idx) (i : S50000x64.Idx)
    (h0 : (i 0).val = 5000 * t.val + (y 0).val) (h1 : (i 1).val = (y 1).val) :
    (iblk1 V c 0 t : Vec Ideal S5000x64 .f32) y = (V c main_v45 : S50000x64.Idx → EReal) i := by
  obtain ⟨e0, e1, -⟩ := grid_facts t
  unfold iblk1
  rw [View.read_apply]
  show V c main_v45 _ = V c main_v45 _
  congr 1
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- The bias block at every point is the whole one-row bias array. -/
theorem bias_apply (c : Dev nD) (t : Fin cfg1.N) (y : S1x64.Idx) (i : S1x64.Idx)
    (h0 : (i 0).val = (y 0).val) (h1 : (i 1).val = (y 1).val) :
    (iblk1 V c 1 t : Vec Ideal S1x64 .f32) y = (V c main_v46 : S1x64.Idx → EReal) i := by
  obtain ⟨-, -, e2, e3, -⟩ := grid_facts t
  unfold iblk1
  rw [View.read_apply]
  show V c main_v46 _ = V c main_v46 _
  congr 1
  funext a
  apply Fin.ext
  match a with
  | ⟨0, _⟩ => show win1_1.index t 0 * 1 + 1 * (y 0).val = (i 0).val; rw [e2, h0]; omega
  | ⟨1, _⟩ => show win1_1.index t 1 * 64 + 1 * (y 1).val = (i 1).val; rw [e3, h1]; omega

/-- What the body leaves at point `t`, read at `j`, is the epilogue of the two arrays at row `5000 t + j 0`. -/
theorem block_apply (c : Dev nD) (t : Fin cfg1.N) (j : S5000x64.Idx) (i : S50000x64.Idx)
    (h0 : (i 0).val = 5000 * t.val + (j 0).val) (h1 : (i 1).val = (j 1).val) :
    k1_pay1 (F := Ideal) (iblk1 V c 0 t) (iblk1 V c 1 t) j
      = biasReluRow (M := 50000) (N := 64) (V c main_v45) (V c main_v46) i := by
  refine (Payloads.epilogue1_apply (iblk1 V c 0 t) (iblk1 V c 1 t) j).trans ?_
  unfold biasReluRow
  exact congrArg₂ (fun p q : EReal => FloatOps.maximumf (F := Ideal) (φ := .f32) (FloatOps.addf (F := Ideal) (φ := .f32) p q)
      (FloatOps.ofBits (F := Ideal) .f32 0x00000000#32))
    (rows_apply V c t j i h0 h1)
    (bias_apply V c t (ix2 (0 : Fin 1) (j 1)) (ix2 (0 : Fin 1) (i 1)) rfl h1)

/-- What point `t` writes back is its block of the whole epilogue. -/
theorem flushed_eq (c : Dev nD) (t : Fin cfg1.N) :
    (dat1 V c).flushed 2 t = ((cfg1.win 2).blk t).view.read (Elt Ideal)
      (biasReluRow (M := 50000) (N := 64) (V c main_v45) (V c main_v46)) := by
  obtain ⟨-, -, -, -, e4, e5⟩ := grid_facts t
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  funext j
  refine block_apply V c t j _ ?_ ?_
  · show win1_2.index t (0 : Fin 2) * 5000 + 1 * (j 0).val = 5000 * t.val + (j 0).val; rw [e4]; omega
  · show win1_2.index t (1 : Fin 2) * 64 + 1 * (j 1).val = (j 1).val; rw [e5]; omega

/-- An index of the output array is in point `t`'s block iff each coordinate is in the block's range. -/
theorem mem_blk (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v47).slice (win1_2.rect t)).set ↔ _
  rw [View.set_slice_whole, Rect.mem_set_unit]
  exact Iff.rfl

/-- Row `r` of the output is in the block of point `r / 5000`. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  let t : Fin cfg1.N := ⟨(i 0).val / 5000, by show _ < grid1.N; rw [hN]; omega⟩
  obtain ⟨-, -, -, -, e4, e5⟩ := grid_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e4]; show (i 0).val / 5000 * 5000 ≤ (i 0).val ∧ (i 0).val < (i 0).val / 5000 * 5000 + 5000; omega
  | ⟨1, _⟩ =>
    show win1_2.index t (1 : Fin 2) * 64 ≤ (i 1).val ∧ (i 1).val < win1_2.index t (1 : Fin 2) * 64 + 64
    rw [e5]; omega

/-- After the region the output array is the epilogue of the aggregated array and the bias row as found. -/
theorem array_eq (c : Dev nD) :
    (dat1 V c).arrAt 2 cfg1.N = biasReluRow (M := 50000) (N := 64) (V c main_v45) (V c main_v46) :=
  (dat1 V c).arrAt_eq_of_cover 2 _ (fun t _ => flushed_eq V c t) cover

end Cert.KernelIdeal.Epilogue1

end
-- ==== Proof.Product2.lean ====
/-
  The second product region's output array, whole.

  As in the first layer: ten grid points, point `t` stages rows `5000 t … 5000 t + 4999` of the hidden
  features (the first layer's result) and the whole second weight matrix, and writes back the same rows of the
  product.  After the region the output array is `dense` of the two arrays as the region found them (`V`).
-/
import proofs.«104333_j20538533609986_1_alg».proof.Proof.Gen.KernelIdeal.Frame
import proofs.«104333_j20538533609986_1_alg».proof.Proof.Payloads
import Idealize.ShloMosaic.Lib.Pipeline.Value

set_option maxRecDepth 16384

noncomputable section

open scoped BigOperators

namespace Cert.KernelIdeal.Product2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block and output windows move down the rows with the point,
    the weight window stays. -/
theorem grid_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row block at point `t` is rows `5000 t …` of the array of rows. -/
theorem rows_apply (c : Dev nD) (t : Fin cfg2.N) (y : S5000x64.Idx) (i : S50000x64.Idx)
    (h0 : (i 0).val = 5000 * t.val + (y 0).val) (h1 : (i 1).val = (y 1).val) :
    (iblk2 V c 0 t : Vec Ideal S5000x64 .f32) y = (V c main_v47 : S50000x64.Idx → EReal) i := by
  obtain ⟨e0, e1, -⟩ := grid_facts t
  unfold iblk2
  rw [View.read_apply]
  show V c main_v47 _ = V c main_v47 _
  congr 1
  funext a
  apply Fin.ext
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The weight block at every point is the whole weight matrix. -/
theorem weights_apply (c : Dev nD) (t : Fin cfg2.N) (y : S64x32.Idx) (i : S64x32.Idx)
    (h0 : (i 0).val = (y 0).val) (h1 : (i 1).val = (y 1).val) :
    (iblk2 V c 1 t : Vec Ideal S64x32 .f32) y = (V c main_arg4 : S64x32.Idx → EReal) i := by
  obtain ⟨-, -, e2, e3, -⟩ := grid_facts t
  unfold iblk2
  rw [View.read_apply]
  show V c main_arg4 _ = V c main_arg4 _
  congr 1
  funext a
  apply Fin.ext
  match a with
  | ⟨0, _⟩ => show win2_1.index t 0 * 64 + 1 * (y 0).val = (i 0).val; rw [e2, h0]; omega
  | ⟨1, _⟩ => show win2_1.index t 1 * 32 + 1 * (y 1).val = (i 1).val; rw [e3, h1]; omega

/-- What the body leaves at point `t`, read at `j`, is the product of the two arrays at row `5000 t + j 0`. -/
theorem block_apply (c : Dev nD) (t : Fin cfg2.N) (j : S5000x32.Idx) (i : S50000x32.Idx)
    (h0 : (i 0).val = 5000 * t.val + (j 0).val) (h1 : (i 1).val = (j 1).val) :
    k2_pay1 (F := Ideal) (iblk2 V c 0 t) (iblk2 V c 1 t) j
      = dense (M := 50000) (K := 64) (N := 32) (V c main_v47) (V c main_arg4) i := by
  refine (Payloads.product2_apply (iblk2 V c 0 t) (iblk2 V c 1 t) j).trans ?_
  unfold dense
  refine Finset.sum_congr rfl fun k _ => ?_
  exact congrArg₂ (fun a b : EReal => a * b)
    (rows_apply V c t (ix2 (j 0) k) (ix2 (i 0) k) h0 rfl)
    (weights_apply V c t (ix2 k (j 1)) (ix2 k (i 1)) rfl h1)

/-- What point `t` writes back is its block of the whole product. -/
theorem flushed_eq (c : Dev nD) (t : Fin cfg2.N) :
    (dat2 V c).flushed 2 t = ((cfg2.win 2).blk t).view.read (Elt Ideal)
      (dense (M := 50000) (K := 64) (N := 32) (V c main_v47) (V c main_arg4)) := by
  obtain ⟨-, -, -, -, e4, e5⟩ := grid_facts t
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  funext j
  refine block_apply V c t j _ ?_ ?_
  · show win2_2.index t (0 : Fin 2) * 5000 + 1 * (j 0).val = 5000 * t.val + (j 0).val; rw [e4]; omega
  · show win2_2.index t (1 : Fin 2) * 32 + 1 * (j 1).val = (j 1).val; rw [e5]; omega

/-- An index of the output array is in point `t`'s block iff each coordinate is in the block's range. -/
theorem mem_blk (t : Fin cfg2.N) (i : S50000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v48).slice (win2_2.rect t)).set ↔ _
  rw [View.set_slice_whole, Rect.mem_set_unit]
  exact Iff.rfl

/-- Row `r` of the output is in the block of point `r / 5000`. -/
theorem cover (i : S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  have hN : grid2.N = 10 := N_2
  let t : Fin cfg2.N := ⟨(i 0).val / 5000, by show _ < grid2.N; rw [hN]; omega⟩
  obtain ⟨-, -, -, -, e4, e5⟩ := grid_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e4]; show (i 0).val / 5000 * 5000 ≤ (i 0).val ∧ (i 0).val < (i 0).val / 5000 * 5000 + 5000; omega
  | ⟨1, _⟩ =>
    show win2_2.index t (1 : Fin 2) * 32 ≤ (i 1).val ∧ (i 1).val < win2_2.index t (1 : Fin 2) * 32 + 32
    rw [e5]; omega

/-- After the region the output array is the product of the array of rows and the weight matrix as found. -/
theorem array_eq (c : Dev nD) :
    (dat2 V c).arrAt 2 cfg2.N = dense (M := 50000) (K := 64) (N := 32) (V c main_v47) (V c main_arg4) :=
  (dat2 V c).arrAt_eq_of_cover 2 _ (fun t _ => flushed_eq V c t) cover

end Cert.KernelIdeal.Product2

end
-- ==== Proof.Epilogue2.lean ====
/-
  The second epilogue region's output array, whole: the program's result.

  Ten grid points; point `t` stages rows `5000 t … 5000 t + 4999` of the second layer's aggregated features
  and the whole one-row bias array, and writes back the same rows of the sum clipped at zero.  After the region
  the output array is `biasReluRow` of the two arrays as the region found them (`V`).
-/
import proofs.«104333_j20538533609986_1_alg».proof.Proof.Gen.KernelIdeal.Frame
import proofs.«104333_j20538533609986_1_alg».proof.Proof.Payloads
import Idealize.ShloMosaic.Lib.Pipeline.Value

set_option maxRecDepth 16384

noncomputable section

open scoped BigOperators

namespace Cert.KernelIdeal.Epilogue2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block and output windows move down the rows with the point,
    the bias window stays. -/
theorem grid_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row block at point `t` is rows `5000 t …` of the aggregated array. -/
theorem rows_apply (c : Dev nD) (t : Fin cfg3.N) (y : S5000x32.Idx) (i : S50000x32.Idx)
    (h0 : (i 0).val = 5000 * t.val + (y 0).val) (h1 : (i 1).val = (y 1).val) :
    (iblk3 V c 0 t : Vec Ideal S5000x32 .f32) y = (V c main_v61 : S50000x32.Idx → EReal) i := by
  obtain ⟨e0, e1, -⟩ := grid_facts t
  unfold iblk3
  rw [View.read_apply]
  show V c main_v61 _ = V c main_v61 _
  congr 1
  funext a
  apply Fin.ext
  match a with
  | ⟨0, _⟩ => show win3_0.index t 0 * 5000 + 1 * (y 0).val = (i 0).val; rw [e0, h0]; omega
  | ⟨1, _⟩ => show win3_0.index t 1 * 32 + 1 * (y 1).val = (i 1).val; rw [e1, h1]; omega

/-- The bias block at every point is the whole one-row bias array. -/
theorem bias_apply (c : Dev nD) (t : Fin cfg3.N) (y : S1x32.Idx) (i : S1x32.Idx)
    (h0 : (i 0).val = (y 0).val) (h1 : (i 1).val = (y 1).val) :
    (iblk3 V c 1 t : Vec Ideal S1x32 .f32) y = (V c main_v62 : S1x32.Idx → EReal) i := by
  obtain ⟨-, -, e2, e3, -⟩ := grid_facts t
  unfold iblk3
  rw [View.read_apply]
  show V c main_v62 _ = V c main_v62 _
  congr 1
  funext a
  apply Fin.ext
  match a with
  | ⟨0, _⟩ => show win3_1.index t 0 * 1 + 1 * (y 0).val = (i 0).val; rw [e2, h0]; omega
  | ⟨1, _⟩ => show win3_1.index t 1 * 32 + 1 * (y 1).val = (i 1).val; rw [e3, h1]; omega

/-- What the body leaves at point `t`, read at `j`, is the epilogue of the two arrays at row `5000 t + j 0`. -/
theorem block_apply (c : Dev nD) (t : Fin cfg3.N) (j : S5000x32.Idx) (i : S50000x32.Idx)
    (h0 : (i 0).val = 5000 * t.val + (j 0).val) (h1 : (i 1).val = (j 1).val) :
    k3_pay1 (F := Ideal) (iblk3 V c 0 t) (iblk3 V c 1 t) j
      = biasReluRow (M := 50000) (N := 32) (V c main_v61) (V c main_v62) i := by
  refine (Payloads.epilogue2_apply (iblk3 V c 0 t) (iblk3 V c 1 t) j).trans ?_
  unfold biasReluRow
  exact congrArg₂ (fun p q : EReal => FloatOps.maximumf (F := Ideal) (φ := .f32) (FloatOps.addf (F := Ideal) (φ := .f32) p q)
      (FloatOps.ofBits (F := Ideal) .f32 0x00000000#32))
    (rows_apply V c t j i h0 h1)
    (bias_apply V c t (ix2 (0 : Fin 1) (j 1)) (ix2 (0 : Fin 1) (i 1)) rfl h1)

/-- What point `t` writes back is its block of the whole epilogue. -/
theorem flushed_eq (c : Dev nD) (t : Fin cfg3.N) :
    (dat3 V c).flushed 2 t = ((cfg3.win 2).blk t).view.read (Elt Ideal)
      (biasReluRow (M := 50000) (N := 32) (V c main_v61) (V c main_v62)) := by
  obtain ⟨-, -, -, -, e4, e5⟩ := grid_facts t
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  funext j
  refine block_apply V c t j _ ?_ ?_
  · show win3_2.index t (0 : Fin 2) * 5000 + 1 * (j 0).val = 5000 * t.val + (j 0).val; rw [e4]; omega
  · show win3_2.index t (1 : Fin 2) * 32 + 1 * (j 1).val = (j 1).val; rw [e5]; omega

/-- An index of the output array is in point `t`'s block iff each coordinate is in the block's range. -/
theorem mem_blk (t : Fin cfg3.N) (i : S50000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v63).slice (win3_2.rect t)).set ↔ _
  rw [View.set_slice_whole, Rect.mem_set_unit]
  exact Iff.rfl

/-- Row `r` of the output is in the block of point `r / 5000`. -/
theorem cover (i : S50000x32.Idx) :
    ∃ t : Fin cfg3.N, (cfg3.win 2).flush t = true ∧ i ∈ ((cfg3.win 2).blk t).view.set := by
  have hi0 : (i 0).val < 50000 := (i 0).isLt
  have hi1 : (i 1).val < 32 := (i 1).isLt
  have hN : grid3.N = 10 := N_3
  let t : Fin cfg3.N := ⟨(i 0).val / 5000, by show _ < grid3.N; rw [hN]; omega⟩
  obtain ⟨-, -, -, -, e4, e5⟩ := grid_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    rw [e4]; show (i 0).val / 5000 * 5000 ≤ (i 0).val ∧ (i 0).val < (i 0).val / 5000 * 5000 + 5000; omega
  | ⟨1, _⟩ =>
    show win3_2.index t (1 : Fin 2) * 32 ≤ (i 1).val ∧ (i 1).val < win3_2.index t (1 : Fin 2) * 32 + 32
    rw [e5]; omega

/-- After the region the output array is the epilogue of the aggregated array and the bias row as found. -/
theorem array_eq (c : Dev nD) :
    (dat3 V c).arrAt 2 cfg3.N = biasReluRow (M := 50000) (N := 32) (V c main_v61) (V c main_v62) :=
  (dat3 V c).arrAt_eq_of_cover 2 _ (fun t _ => flushed_eq V c t) cover

end Cert.KernelIdeal.Epilogue2

end
-- ==== Proof.HostStages.lean ====
/-
  The reference's two dense stages, as whole arrays.

  On the host the matrix product is one contraction of the whole feature array with the weight matrix — at the
  extended reals the sum over the contracted axis, so `dense` — and the epilogue is a bias broadcast to one row
  and then down the rows, an addition and a maximum with the zero splat — `biasRelu`.
-/
import proofs.«104333_j20538533609986_1_alg».proof.Proof.Gen.ReferenceIdeal
import proofs.«104333_j20538533609986_1_alg».proof.Proof.LibPlainDot
import proofs.«104333_j20538533609986_1_alg».proof.Proof.Layers
import Idealize.ShloMosaic.Lib.Pipeline.Value

noncomputable section

open scoped BigOperators

namespace Cert.ReferenceIdeal.Stages

open Cert.ReferenceIdeal Cert.ReferenceIdeal.Gen Idealize.ShloMosaic Idealize.ShloMosaic.ValueIdx Cert.Gcn

/-! ## The two contractions are plain: the left operand's second axis against the right operand's first -/

abbrev dims1 : DotDims S50000x128 S128x64 S50000x64 := dot_S50000x128_S128x64_S50000x64_1_0_0_1_n_n

theorem dims1_l0 (i : S50000x64.Idx) (q : dims1.contr.Idx) : (dims1.lhsIdx i q 0).val = (i 0).val := by
  unfold DotDims.lhsIdx
  rw [dif_neg (show ¬(0 : Fin S50000x128.rank) ∈ dims1.lhsBatch by decide),
    dif_pos (show (0 : Fin S50000x128.rank) ∈ dims1.lhsNonContracting by decide)]
  rfl
theorem dims1_l1 (i : S50000x64.Idx) (q : dims1.contr.Idx) : (dims1.lhsIdx i q 1).val = (q ⟨0, by decide⟩).val :=
  dims1.lhsIdx_val_of_single rfl i q
theorem dims1_r0 (i : S50000x64.Idx) (q : dims1.contr.Idx) : (dims1.rhsIdx i q 0).val = (q ⟨0, by decide⟩).val :=
  dims1.rhsIdx_val_of_single rfl i q
theorem dims1_r1 (i : S50000x64.Idx) (q : dims1.contr.Idx) : (dims1.rhsIdx i q 1).val = (i 1).val := by
  unfold DotDims.rhsIdx
  rw [dif_neg (show ¬(1 : Fin S128x64.rank) ∈ dims1.rhsBatch by decide),
    dif_pos (show (1 : Fin S128x64.rank) ∈ dims1.rhsNonContracting by decide)]
  rfl

/-- The first layer's product on the host is `dense` of the feature array and the first weight matrix. -/
theorem product1_eq (x : FVec Ideal S50000x128 .f32) (w : FVec Ideal S128x64 .f32) :
    Host.dotGeneral (F := Ideal) dims1 none x w = dense (M := 50000) (K := 128) (N := 64) x w := by
  funext j
  simp only [Host.dotGeneral]
  exact Cert.Lib.PlainDot.dotGeneral_apply (M := 50000) (K := 128) (N := 64) dims1 rfl rfl
    dims1_l0 dims1_l1 dims1_r0 dims1_r1 none _ x w j

abbrev dims2 : DotDims S50000x64 S64x32 S50000x32 := dot_S50000x64_S64x32_S50000x32_1_0_0_1_n_n

theorem dims2_l0 (i : S50000x32.Idx) (q : dims2.contr.Idx) : (dims2.lhsIdx i q 0).val = (i 0).val := by
  unfold DotDims.lhsIdx
  rw [dif_neg (show ¬(0 : Fin S50000x64.rank) ∈ dims2.lhsBatch by decide),
    dif_pos (show (0 : Fin S50000x64.rank) ∈ dims2.lhsNonContracting by decide)]
  rfl
theorem dims2_l1 (i : S50000x32.Idx) (q : dims2.contr.Idx) : (dims2.lhsIdx i q 1).val = (q ⟨0, by decide⟩).val :=
  dims2.lhsIdx_val_of_single rfl i q
theorem dims2_r0 (i : S50000x32.Idx) (q : dims2.contr.Idx) : (dims2.rhsIdx i q 0).val = (q ⟨0, by decide⟩).val :=
  dims2.rhsIdx_val_of_single rfl i q
theorem dims2_r1 (i : S50000x32.Idx) (q : dims2.contr.Idx) : (dims2.rhsIdx i q 1).val = (i 1).val := by
  unfold DotDims.rhsIdx
  rw [dif_neg (show ¬(1 : Fin S64x32.rank) ∈ dims2.rhsBatch by decide),
    dif_pos (show (1 : Fin S64x32.rank) ∈ dims2.rhsNonContracting by decide)]
  rfl

/-- The second layer's product on the host is `dense` of the hidden features and the second weight matrix. -/
theorem product2_eq (x : FVec Ideal S50000x64 .f32) (w : FVec Ideal S64x32 .f32) :
    Host.dotGeneral (F := Ideal) dims2 none x w = dense (M := 50000) (K := 64) (N := 32) x w := by
  funext j
  simp only [Host.dotGeneral]
  exact Cert.Lib.PlainDot.dotGeneral_apply (M := 50000) (K := 64) (N := 32) dims2 rfl rfl
    dims2_l0 dims2_l1 dims2_r0 dims2_r1 none _ x w j

/-! ## The two epilogues -/

/-- The first layer's epilogue on the host — the bias broadcast to one row and then down the rows, added, and the
    maximum with the zero splat — is `biasRelu`. -/
theorem epilogue1_eq (a : FVec Ideal S50000x64 .f32) (b : FVec Ideal S64 .f32) :
    maximumf (addf a (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))
      = biasRelu (M := 50000) (N := 64) a b := by
  funext j
  have e1 : broadcastInDim S50000x64 ![0, 1] bcast_S1x64_S50000x64_0_1 (broadcastInDim S1x64 ![1] bcast_S64_S1x64_1 b) j = b (ix1 (j 1)) := by
    refine (broadcastInDim_apply _ bcast_S1x64_S50000x64_0_1 _ j (ix2 (0 : Fin 1) (j 1)) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])).trans ?_
    exact broadcastInDim_apply _ bcast_S64_S1x64_1 b (ix2 (0 : Fin 1) (j 1)) (ix1 (j 1)) (fun a => match a with
      | ⟨0, _⟩ => by show (j 1).val = if (64 : Nat) = 1 then 0 else (j 1).val; rw [if_neg (by decide)])
  have e2 : broadcastInDim S50000x64 ![] bcast_S_S50000x64 (constant (F := Ideal) S_ .f32 0x00000000#32) j
      = FloatOps.ofBits (F := Ideal) .f32 0x00000000#32 :=
    broadcastInDim_apply _ bcast_S_S50000x64 _ j ix0 (fun a => a.elim0)
  unfold biasRelu
  dsimp only [maximumf, addf]
  rw [e1, e2]

/-- The second layer's epilogue on the host — the bias broadcast to one row and then down the rows, added, and the
    maximum with the zero splat — is `biasRelu`. -/
theorem epilogue2_eq (a : FVec Ideal S50000x32 .f32) (b : FVec Ideal S32 .f32) :
    maximumf (addf a (broadcastInDim S50000x32 ![0, 1] bcast_S1x32_S50000x32_0_1 (broadcastInDim S1x32 ![1] bcast_S32_S1x32_1 b)))
        (broadcastInDim S50000x32 ![] bcast_S_S50000x32 (constant (F := Ideal) S_ .f32 0x00000000#32))
      = biasRelu (M := 50000) (N := 32) a b := by
  funext j
  have e1 : broadcastInDim S50000x32 ![0, 1] bcast_S1x32_S50000x32_0_1 (broadcastInDim S1x32 ![1] bcast_S32_S1x32_1 b) j = b (ix1 (j 1)) := by
    refine (broadcastInDim_apply _ bcast_S1x32_S50000x32_0_1 _ j (ix2 (0 : Fin 1) (j 1)) (fun a => match a with
      | ⟨0, _⟩ => by show 0 = if (1 : Nat) = 1 then 0 else (j 0).val; rw [if_pos rfl]
      | ⟨1, _⟩ => by show (j 1).val = if (32 : Nat) = 1 then 0 else (j 1).val; rw [if_neg (by decide)])).trans ?_
    exact broadcastInDim_apply _ bcast_S32_S1x32_1 b (ix2 (0 : Fin 1) (j 1)) (ix1 (j 1)) (fun a => match a with
      | ⟨0, _⟩ => by show (j 1).val = if (32 : Nat) = 1 then 0 else (j 1).val; rw [if_neg (by decide)])
  have e2 : broadcastInDim S50000x32 ![] bcast_S_S50000x32 (constant (F := Ideal) S_ .f32 0x00000000#32) j
      = FloatOps.ofBits (F := Ideal) .f32 0x00000000#32 :=
    broadcastInDim_apply _ bcast_S_S50000x32 _ j ix0 (fun a => a.elim0)
  unfold biasRelu
  dsimp only [maximumf, addf]
  rw [e1, e2]

end Cert.ReferenceIdeal.Stages

end
-- ==== Proof.GraphGlue.lean ====
/-
  The message passing both programs share, named once, and the reference's result in terms of it.

  From the edge array `e` (two rows: sources and targets) the host builds the edge lists with one self-loop per
  node appended (`src e`, `dst e`), the degree of every node as a scatter-add of ones at the targets, its
  reciprocal square root where the degree is positive (`dinv e`), and the per-edge normalisation
  `dinv[src] * dinv[dst]` (`norm e`).  A layer's aggregation gathers the rows of the transformed features at
  the sources, scales row `k` by `norm e k` and adds it up at target `dst e k` (`aggregate64`, `aggregate32`:
  the two layers' widths).  Index columns are wrapped before a gather the way indexing with negative indices is (a negative index is
  shifted up by the number of nodes).  None of this is opened anywhere: the two programs apply the same
  operations, and the proof only needs them to be the same terms.

  `result` is the two layers composed; `result_eq` says the reference's run ends at it.
-/
import proofs.«104333_j20538533609986_1_alg».proof.Proof.RefRun
import proofs.«104333_j20538533609986_1_alg».proof.Proof.HostStages

set_option maxRecDepth 16384

noncomputable section

namespace Cert.ReferenceIdeal.Glue

open Cert.ReferenceIdeal Cert.ReferenceIdeal.Gen Idealize.ShloMosaic Idealize.ShloMosaic.TcCoe Idealize.SL.Sem
open Idealize.ShloMosaic.ValueIdx Cert.Gcn

variable {F : FTy → Type} [FloatOps F]

/-- The sources of the edges, then every node once (its self-loop). -/
def src (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The targets of the edges, then every node once. -/
def dst (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- An index list as a gather's index column: a negative entry is shifted up by the number of nodes. -/
def wrapped (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Every node's degree: ones added up at the edges' targets. -/
def degree (e : (⟨S2x800000, .i32⟩ : BufTy).Contents (Elt F)) : FVec F S50000 .f32 :=
  Host.scatterAdd scatter_S50000_S850000x1_S850000_n_0_0_1
    (broadcastInDim S50000 ![] bcast_S_S50000 (constant (F := F) S_ .f32 0x00000000#32))
    (broadcastInDim S850000x1 ![0] bcast_S850000_S850000x1_0 (dst (F := F) e))
    (broadcastInDim S850000 ![] bcast_S_S850000 (constant (F := F) S_ .f32 0x3F800000#32))

/-- The reciprocal square root of the degree (of at least one) where the degree is positive, zero elsewhere. -/
def dinv (e : (⟨S2x800000, .i32⟩ : BufTy).Contents (Elt F)) : FVec F S50000 .f32 :=
  select (cmpf (F := F) .ogt (degree e) (broadcastInDim S50000 ![] bcast_S_S50000 (constant (F := F) S_ .f32 0x00000000#32)))
    (Host.rsqrt (maximumf (degree e) (broadcastInDim S50000 ![] bcast_S_S50000 (constant (F := F) S_ .f32 0x3F800000#32))))
    (broadcastInDim S50000 ![] bcast_S_S50000 (constant (F := F) S_ .f32 0x00000000#32))

/-- The symmetric normalisation of every edge: `dinv` at its source times `dinv` at its target. -/
def norm (e : (⟨S2x800000, .i32⟩ : BufTy).Contents (Elt F)) : FVec F S850000 .f32 :=
  mulf (Host.gather gather_S50000_S850000x1_S850000_n_0_n_n_0_1_1 (dinv e) (wrapped (F := F) (src (F := F) e)))
    (Host.gather gather_S50000_S850000x1_S850000_n_0_n_n_0_1_1 (dinv e) (wrapped (F := F) (dst (F := F) e)))

/-- The first layer's aggregation: rows gathered at the sources, scaled by the normalisation, added up at the targets. -/
def aggregate64 (e : (⟨S2x800000, .i32⟩ : BufTy).Contents (Elt F)) (h : FVec F S50000x64 .f32) : FVec F S50000x64 .f32 :=
  Host.scatterAdd scatter_S50000x64_S850000x1_S850000x64_1_0_0_1
    (broadcastInDim S50000x64 ![] bcast_S_S50000x64 (constant (F := F) S_ .f32 0x00000000#32))
    (broadcastInDim S850000x1 ![0] bcast_S850000_S850000x1_0 (dst (F := F) e))
    (mulf (Host.gather gather_S50000x64_S850000x1_S850000x64_1_0_n_n_0_1_164 h (wrapped (F := F) (src (F := F) e)))
      (broadcastInDim S850000x64 ![0, 1] bcast_S850000x1_S850000x64_0_1
        (broadcastInDim S850000x1 ![0] bcast_S850000_S850000x1_0 (norm e))))

/-- The second layer's aggregation. -/
def aggregate32 (e : (⟨S2x800000, .i32⟩ : BufTy).Contents (Elt F)) (h : FVec F S50000x32 .f32) : FVec F S50000x32 .f32 :=
  Host.scatterAdd scatter_S50000x32_S850000x1_S850000x32_1_0_0_1
    (broadcastInDim S50000x32 ![] bcast_S_S50000x32 (constant (F := F) S_ .f32 0x00000000#32))
    (broadcastInDim S850000x1 ![0] bcast_S850000_S850000x1_0 (dst (F := F) e))
    (mulf (Host.gather gather_S50000x32_S850000x1_S850000x32_1_0_n_n_0_1_132 h (wrapped (F := F) (src (F := F) e)))
      (broadcastInDim S850000x32 ![0, 1] bcast_S850000x1_S850000x32_0_1
        (broadcastInDim S850000x1 ![0] bcast_S850000_S850000x1_0 (norm e))))

/-- The two layers: features times weights, aggregated over the graph, bias added and clipped at zero; twice. -/
def result (x0 : FVec Ideal S50000x128 .f32) (e : (⟨S2x800000, .i32⟩ : BufTy).Contents (Elt Ideal)) (x2 : FVec Ideal S128x64 .f32)
    (x3 : FVec Ideal S64 .f32) (x4 : FVec Ideal S64x32 .f32) (x5 : FVec Ideal S32 .f32) : FVec Ideal S50000x32 .f32 :=
  biasRelu (M := 50000) (N := 32)
    (aggregate32 (F := Ideal) e (dense (M := 50000) (K := 64) (N := 32)
      (biasRelu (M := 50000) (N := 64) (aggregate64 (F := Ideal) e (dense (M := 50000) (K := 128) (N := 64) x0 x2)) x3) x4)) x5

/-- The reference's run ends at `result` of its argument arrays. -/
theorem result_eq (m : (ℓ : Loc nD τ sig) → Buf (Elt Ideal) ℓ) (c : Dev nD) :
    Cert.ReferenceIdeal.ValueP.res_main_v67 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold result
  rw [← Stages.epilogue2_eq, ← Stages.epilogue1_eq, ← Stages.product2_eq, ← Stages.product1_eq]
  unfold Cert.ReferenceIdeal.ValueP.res_main_v67
  rfl

end Cert.ReferenceIdeal.Glue

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.Bridge.lean ====
/-
  The kernel program's result array is the reference's result.

  The kernel program's run leaves its result array at the last boundary's contents, a fold through four regions and
  five stretches of host operations.  Read backwards: the last region's output is the bias-and-clip epilogue of the
  second aggregation and the second bias (reshaped to one row); the aggregation is the shared host operations
  applied to the second product region's output; that is `dense` of the first epilogue region's output and the
  second weight matrix; and so on down to the first product region, whose operands are argument arrays no
  operation before it writes.  The edge lists and the normalisation are computed before the first region and no
  region or later stretch writes them, so every later boundary holds them as the first did.  What comes out is
  `biasRelu (aggregate32 e (dense (biasRelu (aggregate64 e (dense x W1)) b1) W2)) b2`, the reference's result.
-/
import proofs.«104333_j20538533609986_1_alg».proof.Proof.Gen.KernelIdeal.Frame
import proofs.«104333_j20538533609986_1_alg».proof.Proof.Product1
import proofs.«104333_j20538533609986_1_alg».proof.Proof.Epilogue1
import proofs.«104333_j20538533609986_1_alg».proof.Proof.Product2
import proofs.«104333_j20538533609986_1_alg».proof.Proof.Epilogue2
import proofs.«104333_j20538533609986_1_alg».proof.Proof.GraphGlue
import proofs.«104333_j20538533609986_1_alg».proof.Proof.LibTypedRef
import Idealize.ShloMosaic.Lib.StableHlo.Run
import Idealize.ShloMosaic.Lib.ValueLayout

set_option maxRecDepth 16384

noncomputable section

namespace Cert.Bridge

open Cert.KernelIdeal Cert.KernelIdeal.Gen Idealize.ShloMosaic Idealize.ShloMosaic.TcCoe Idealize.SL.Sem Idealize.ShloMosaic.StableHlo
open Idealize.ShloMosaic.ValueIdx Cert.Gcn

variable (m : (ℓ : Loc nD τ sig) → Buf (Elt Ideal) ℓ) (ρ : Dev nD → PrngReg) (c : Dev nD)

theorem out3 : W9 m ρ c (Proc.devRef .tc main_v63)
    = biasReluRow (M := 50000) (N := 32) (V8 m ρ c main_v61) (V8 m ρ c main_v62) :=
  (W9_arr m ρ c 2).trans (Epilogue2.array_eq (V8 m ρ) c)
theorem out2 : W7 m ρ c (Proc.devRef .tc main_v48)
    = dense (M := 50000) (K := 64) (N := 32) (V6 m ρ c main_v47) (V6 m ρ c main_arg4) :=
  (W7_arr m ρ c 2).trans (Product2.array_eq (V6 m ρ) c)
theorem out1 : W6 m ρ c (Proc.devRef .tc main_v47)
    = biasReluRow (M := 50000) (N := 64) (V5 m ρ c main_v45) (V5 m ρ c main_v46) :=
  (W6_arr m ρ c 2).trans (Epilogue1.array_eq (V5 m ρ) c)
theorem out0 : W4 m ρ c (Proc.devRef .tc main_v32)
    = dense (M := 50000) (K := 128) (N := 64) (V3 m ρ c main_arg0) (V3 m ρ c main_arg2) :=
  (W4_arr m ρ c 2).trans (Product1.array_eq (V3 m ρ) c)

theorem W7_v3 : W7 m ρ c (Proc.devRef .tc main_v3) = W6 m ρ c (Proc.devRef .tc main_v3) := W7_of_ne m ρ c main_v3 (by decide)
theorem W7_v6 : W7 m ρ c (Proc.devRef .tc main_v6) = W6 m ρ c (Proc.devRef .tc main_v6) := W7_of_ne m ρ c main_v6 (by decide)
theorem W7_v31 : W7 m ρ c (Proc.devRef .tc main_v31) = W6 m ρ c (Proc.devRef .tc main_v31) := W7_of_ne m ρ c main_v31 (by decide)
theorem W7_arg5 : W7 m ρ c (Proc.devRef .tc main_arg5) = W6 m ρ c (Proc.devRef .tc main_arg5) := W7_of_ne m ρ c main_arg5 (by decide)
theorem W6_v3 : W6 m ρ c (Proc.devRef .tc main_v3) = W5 m ρ c (Proc.devRef .tc main_v3) := W6_of_ne m ρ c main_v3 (by decide)
theorem W6_v6 : W6 m ρ c (Proc.devRef .tc main_v6) = W5 m ρ c (Proc.devRef .tc main_v6) := W6_of_ne m ρ c main_v6 (by decide)
theorem W6_v31 : W6 m ρ c (Proc.devRef .tc main_v31) = W5 m ρ c (Proc.devRef .tc main_v31) := W6_of_ne m ρ c main_v31 (by decide)
theorem W6_arg4 : W6 m ρ c (Proc.devRef .tc main_arg4) = W5 m ρ c (Proc.devRef .tc main_arg4) := W6_of_ne m ρ c main_arg4 (by decide)
theorem W6_arg5 : W6 m ρ c (Proc.devRef .tc main_arg5) = W5 m ρ c (Proc.devRef .tc main_arg5) := W6_of_ne m ρ c main_arg5 (by decide)
theorem W4_v3 : W4 m ρ c (Proc.devRef .tc main_v3) = W3 m ρ c (Proc.devRef .tc main_v3) := W4_of_ne m ρ c main_v3 (by decide)
theorem W4_v6 : W4 m ρ c (Proc.devRef .tc main_v6) = W3 m ρ c (Proc.devRef .tc main_v6) := W4_of_ne m ρ c main_v6 (by decide)
theorem W4_v31 : W4 m ρ c (Proc.devRef .tc main_v31) = W3 m ρ c (Proc.devRef .tc main_v31) := W4_of_ne m ρ c main_v31 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)

/-- The one-row bias arrays the epilogue regions stage are the bias vectors reshaped. -/
theorem bias_row2 : V8 m ρ c main_v62 = shapeCast S1x32 (W7 m ρ c (Proc.devRef .tc main_arg5)) shapeCasts_S32_S1x32 := by
  show StableHlo.after hostOps3 (W7 m ρ c) (Proc.devRef .tc main_v62) = _
  dsimp only [hostOps3]
  after_results_simp
  rfl
theorem bias_row1 : V5 m ρ c main_v46 = shapeCast S1x64 (W4 m ρ c (Proc.devRef .tc main_arg3)) shapeCasts_S64_S1x64 := by
  show StableHlo.after hostOps1 (W4 m ρ c) (Proc.devRef .tc main_v46) = _
  dsimp only [hostOps1]
  after_results_simp
  rfl

/-! ## The selection function's typed references

The call of the selection function is inlined as operations through typed references; contents pass to a reference's
buffer and back along the fact that the buffer's type is the value's.  At these literal references that fact holds by
computation, so each passage is the identity. -/

theorem toBuf_v16 (h1 h2 h3) (v : (⟨S50000, .f32⟩ : BufTy).Contents (Elt Ideal)) :
    (StableHlo.TRef.of (T := ⟨S50000, .f32⟩) main_v16 h1 h2 h3).toBuf (Val := Elt Ideal) v = v := rfl
theorem ofBuf_v12 (h1 h2 h3) (v : (⟨S50000, .i1⟩ : BufTy).Contents (Elt Ideal)) :
    (StableHlo.TRef.of (T := ⟨S50000, .i1⟩) main_v12 h1 h2 h3).ofBuf (Val := Elt Ideal) v = v := rfl
theorem ofBuf_v15 (h1 h2 h3) (v : (⟨S50000, .f32⟩ : BufTy).Contents (Elt Ideal)) :
    (StableHlo.TRef.of (T := ⟨S50000, .f32⟩) main_v15 h1 h2 h3).ofBuf (Val := Elt Ideal) v = v := rfl
theorem ofBuf_cst3 (h1 h2 h3) (v : (⟨S_, .f32⟩ : BufTy).Contents (Elt Ideal)) :
    (StableHlo.TRef.of (T := ⟨S_, .f32⟩) main_cst_3 h1 h2 h3).ofBuf (Val := Elt Ideal) v = v := rfl

/-! ## What the host operations before the first region leave -/

set_option maxHeartbeats 20000000 in
/-- The source list with self-loops. -/
theorem W3_src : W3 m ρ c (Proc.devRef .tc main_v3) = Cert.ReferenceIdeal.Glue.src (F := Ideal) (W0 m ρ c (Proc.devRef .tc main_arg1)) := by
  dsimp only [W3, W2, W1, hostOps0, hostOps0_1, hostOps0_2]
  after_results_simp
  rfl

set_option maxHeartbeats 20000000 in
/-- The target list with self-loops. -/
theorem W3_dst : W3 m ρ c (Proc.devRef .tc main_v6) = Cert.ReferenceIdeal.Glue.dst (F := Ideal) (W0 m ρ c (Proc.devRef .tc main_arg1)) := by
  dsimp only [W3, W2, W1, hostOps0, hostOps0_1, hostOps0_2]
  after_results_simp
  rfl

set_option maxHeartbeats 40000000 in
/-- The per-edge normalisation (it reads the reciprocal square roots of the degrees, which the inlined call of the
    selection function writes through typed references: their passages are removed first). -/
theorem W3_norm : W3 m ρ c (Proc.devRef .tc main_v31) = Cert.ReferenceIdeal.Glue.norm (F := Ideal) (W0 m ρ c (Proc.devRef .tc main_arg1)) := by
  dsimp only [W3, W2, W1, hostOps0, hostOps0_1, hostOps0_2]
  after_results_simp
  simp only [Cert.Lib.TypedRef.ofBuf_toBuf, toBuf_v16, ofBuf_v12, ofBuf_v15, ofBuf_cst3]
  rfl

set_option maxHeartbeats 20000000 in
theorem W3_arg0 : W3 m ρ c (Proc.devRef .tc main_arg0) = W0 m ρ c (Proc.devRef .tc main_arg0) := by
  dsimp only [W3, W2, W1, hostOps0, hostOps0_1, hostOps0_2]
  after_results_simp
set_option maxHeartbeats 20000000 in
theorem W3_arg2 : W3 m ρ c (Proc.devRef .tc main_arg2) = W0 m ρ c (Proc.devRef .tc main_arg2) := by
  dsimp only [W3, W2, W1, hostOps0, hostOps0_1, hostOps0_2]
  after_results_simp
set_option maxHeartbeats 20000000 in
theorem W3_arg3 : W3 m ρ c (Proc.devRef .tc main_arg3) = W0 m ρ c (Proc.devRef .tc main_arg3) := by
  dsimp only [W3, W2, W1, hostOps0, hostOps0_1, hostOps0_2]
  after_results_simp
set_option maxHeartbeats 20000000 in
theorem W3_arg4 : W3 m ρ c (Proc.devRef .tc main_arg4) = W0 m ρ c (Proc.devRef .tc main_arg4) := by
  dsimp only [W3, W2, W1, hostOps0, hostOps0_1, hostOps0_2]
  after_results_simp
set_option maxHeartbeats 20000000 in
theorem W3_arg5 : W3 m ρ c (Proc.devRef .tc main_arg5) = W0 m ρ c (Proc.devRef .tc main_arg5) := by
  dsimp only [W3, W2, W1, hostOps0, hostOps0_1, hostOps0_2]
  after_results_simp

/-- A bias vector reshaped into one row, read as the epilogue's bias row, is the bias vector. -/
theorem row_bias1 (a : (⟨2, ![50000, 64]⟩ : Shape).Idx → EReal) (b : S64.Idx → EReal) :
    biasReluRow (M := 50000) (N := 64) a (shapeCast S1x64 b shapeCasts_S64_S1x64) = biasRelu (M := 50000) (N := 64) a b := by
  funext j
  unfold biasReluRow biasRelu
  exact congrArg (fun q : EReal => FloatOps.maximumf (F := Ideal) (φ := .f32) (FloatOps.addf (F := Ideal) (φ := .f32) (a j) q)
    (FloatOps.ofBits (F := Ideal) .f32 0x00000000#32)) (shapeCast_a_1a_apply b shapeCasts_S64_S1x64 (0 : Fin 1) (j 1))
theorem row_bias2 (a : (⟨2, ![50000, 32]⟩ : Shape).Idx → EReal) (b : S32.Idx → EReal) :
    biasReluRow (M := 50000) (N := 32) a (shapeCast S1x32 b shapeCasts_S32_S1x32) = biasRelu (M := 50000) (N := 32) a b := by
  funext j
  unfold biasReluRow biasRelu
  exact congrArg (fun q : EReal => FloatOps.maximumf (F := Ideal) (φ := .f32) (FloatOps.addf (F := Ideal) (φ := .f32) (a j) q)
    (FloatOps.ofBits (F := Ideal) .f32 0x00000000#32)) (shapeCast_a_1a_apply b shapeCasts_S32_S1x32 (0 : Fin 1) (j 1))

/-! ## The result -/

set_option maxHeartbeats 40000000 in
/-- The kernel program's result array, read back through its four regions and the host stretches between them, is the
    reference's result of the argument arrays. -/
theorem kernel_result (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W9 m ρ c (Proc.devRef .tc main_v63) = Cert.ReferenceIdeal.ValueP.res_main_v67 (F := Ideal) m' c := by
  rw [Cert.ReferenceIdeal.Glue.result_eq m' c, h0, h1, h2, h3, h4, h5]
  -- the last region's output, and the second aggregation before it
  rw [out3 m ρ c, bias_row2 m ρ c]
  dsimp only [V8, W8, hostOps3]
  after_results_simp
  -- the second product region and the first epilogue region
  rw [out2 m ρ c, W7_v3, W7_v6, W7_v31, W7_arg5]
  dsimp only [V6]
  rw [out1 m ρ c, bias_row1 m ρ c, W6_v3, W6_v6, W6_v31, W6_arg4, W6_arg5]
  -- the first aggregation
  dsimp only [V5, W5, hostOps1]
  after_results_simp
  -- the first product region, and the edge lists and normalisation computed before it
  rw [out0 m ρ c, W4_v3, W4_v6, W4_v31, W4_arg3, W4_arg4, W4_arg5]
  dsimp only [V3]
  rw [W3_src, W3_dst, W3_norm, W3_arg0, W3_arg2, W3_arg3, W3_arg4, W3_arg5]
  rw [row_bias2, row_bias1]
  rfl

end Cert.Bridge

end
-- ==== Proof.lean ====
/-
  A two-layer graph convolution: the kernel program against its plain reference.

  Both programs compute, twice over, `relu (b + Σ_{edges into a node} norm(edge) · (x · W)[source of the edge])`:
  the same host operations build the edge lists with self-loops, the symmetric degree normalisation, the gather
  of the transformed rows at the edges' sources, the scaling and the scatter-add at the edges' targets.  They
  differ only in where the dense work is done.  The kernel program multiplies the features by the weights in
  blocks of 5000 rows on the matrix unit (the operands cut to a narrower float format, which is the identity on
  extended reals, the accumulator zero) and adds the bias and clips at zero in blocks of 5000 rows; the reference
  does both as whole-array host operations.  Over the extended reals each block of the kernel's product is the
  same sum over the contracted axis as the host's contraction, row by row, and each block of its epilogue is the
  same sum and maximum, entry by entry; the ten blocks tile the arrays.  So each region's output array, whole,
  is the host stage's array, and the two programs' results are one term of the argument arrays.  No law of the
  extended reals beyond that is used, and the precondition (finite inputs) is never opened.

  The three frames: the two kernel programs' are the chains of segments over their four regions; the
  reference's is its run with the result dropped.  The idealization rewrote no operation, so `preserves` is
  trivial.
-/
import proofs.«104333_j20538533609986_1_alg».proof.Defs
import proofs.«104333_j20538533609986_1_alg».proof.Proof.Gen.Kernel
import proofs.«104333_j20538533609986_1_alg».proof.Proof.Gen.Kernel.Frame
import proofs.«104333_j20538533609986_1_alg».proof.Proof.Gen.KernelIdeal
import proofs.«104333_j20538533609986_1_alg».proof.Proof.Gen.KernelIdeal.Frame
import proofs.«104333_j20538533609986_1_alg».proof.Proof.Gen.ReferenceIdeal
import proofs.«104333_j20538533609986_1_alg».proof.Proof.Gen.Pre_finite_inputs
import proofs.«104333_j20538533609986_1_alg».proof.Proof.KernelRun
import proofs.«104333_j20538533609986_1_alg».proof.Proof.RefRun
import proofs.«104333_j20538533609986_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs run, and the kernel's result array — the last region's output — is the reference's composed term of
    the argument arrays. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.Bridge.kernel_result m ρ c m' (hagree c).1 (hagree c).2.1 (hagree c).2.2.1 (hagree c).2.2.2.1
    (hagree c).2.2.2.2.1 (hagree c).2.2.2.2.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
